-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x128 : Shape := ⟨3, ![8, 10000, 128]⟩
abbrev S128x128 : Shape := ⟨2, ![128, 128]⟩
abbrev S128 : Shape := ⟨1, ![128]⟩
abbrev S_ : Shape := ⟨0, ![]⟩

class Facts : Prop where
  bcast_S_S8x10000x128 : S_.BroadcastsInDim S8x10000x128 (![] : Fin 0 → Fin S8x10000x128.rank)
  reducesTo_S8x10000x128_S_d0_1_2 : S8x10000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x10000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S8x10000x128 .f32 := Host.absf main_arg0
  let main_cst : FVec F S_ .f32 := constant S_ .f32 0x7F800000#32
  let main_v1 : FVec F S8x10000x128 .f32 := broadcastInDim S8x10000x128 ![] bcast_S_S8x10000x128 main_cst
  let main_v2 : IVec S8x10000x128 1 := cmpf .olt main_v0 main_v1
  let main_c : IVec S_ 1 := constantI S_ 1 1#1
  let main_v3 : IVec S_ 1 := (fun x v => Host.reduce IntOp.andi x v reducesTo_S8x10000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8x10000x128 : Shape := ⟨3, ![8, 10000, 128]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S8x1000x128 : Shape := ⟨3, ![8, 1000, 128]⟩
abbrev S8000x128 : Shape := ⟨2, ![8000, 128]⟩

abbrev nBuf : Space → Nat
  | .hbm => 16
  | .vmem => 10
  | .smem => 0
  | _ => 0

abbrev bufTy : (tb : Table) → Fin (tcTables nBuf tb) → BufTy
  | .hbm, ⟨0, _⟩ => ⟨S8x10000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .bf16⟩
  | .hbm, ⟨8, _⟩ => ⟨S1x128, .f32⟩
  | .hbm, ⟨9, _⟩ => ⟨S1x128, .bf16⟩
  | .hbm, ⟨10, _⟩ => ⟨S128x128, .bf16⟩
  | .hbm, ⟨11, _⟩ => ⟨S1x128, .f32⟩
  | .hbm, ⟨12, _⟩ => ⟨S1x128, .bf16⟩
  | .hbm, ⟨13, _⟩ => ⟨S128x128, .bf16⟩
  | .hbm, ⟨14, _⟩ => ⟨S1x128, .f32⟩
  | .hbm, ⟨15, _⟩ => ⟨S8x128, .f32⟩
  | .local _ .vmem, ⟨0, _⟩ => ⟨S8x1000x128, .f32⟩
  | .local _ .vmem, ⟨1, _⟩ => ⟨S8x1000x128, .f32⟩
  | .local _ .vmem, ⟨2, _⟩ => ⟨S128x128, .bf16⟩
  | .local _ .vmem, ⟨3, _⟩ => ⟨S1x128, .bf16⟩
  | .local _ .vmem, ⟨4, _⟩ => ⟨S128x128, .bf16⟩
  | .local _ .vmem, ⟨5, _⟩ => ⟨S1x128, .bf16⟩
  | .local _ .vmem, ⟨6, _⟩ => ⟨S128x128, .bf16⟩
  | .local _ .vmem, ⟨7, _⟩ => ⟨S1x128, .f32⟩
  | .local _ .vmem, ⟨8, _⟩ => ⟨S8x128, .f32⟩
  | .local _ .vmem, ⟨9, _⟩ => ⟨S8x128, .f32⟩
  | _, _ => ⟨S8x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_19 : BitVec 32 := 0#32
  let v36 : BitVec 1 := Scalar.cmpi .ne v35 c0_i32_19
  v36

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bitsLt_bf16_f32 : FTy.bits .bf16 < FTy.bits .f32
  shapeCasts_S128_S1x128 : S128.ShapeCasts S1x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1000x128_S8x1000x128_0_0_0 : ∀ a, (![0, 0, 0] : Fin 3 → Nat) a + S8x1000x128.size a ≤ S8x1000x128.size a
  h_S8x1000x128 : 0 < S8x1000x128.numel
  shapeCasts_S8x1000x128_S8000x128 : S8x1000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S8000x128_S8x1000x128 : S8000x128.ShapeCasts S8x1000x128
  reduces_S8x1000x128_S8x128 : S8x1000x128.Reduces [1] S8x128
  broadcasts_S1x128_S8x128 : S1x128.Broadcasts S8x128
  dot_S8000x128_S128x128_S8000x128_1_0_0_1_n_n_wf : DotDims.WF S8000x128 S128x128 S8000x128 [1] [0] [0] [1] [] []
  dot_S8x128_S128x128_S8x128_1_0_0_1_n_n_wf : DotDims.WF S8x128 S128x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1000x128.size a ≤ S8x10000x128.size a
  hwx0_0 : ∀ i : grid0.Coords, EltTy.bits .f32 = 32 ∨ (Rect.block (s := S8x10000x128) S8x1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .bf16 = 32 ∨ (Rect.block (s := S1x128) S1x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .bf16 = 32 ∨ (Rect.block (s := S1x128) S1x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf

abbrev win0_0 : Pipeline.Window sig grid0 :=
  Pipeline.Window.ofSpec (Memref.whole main_arg0) S8x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x10000x128 : Shape := ⟨3, ![8, 10000, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S8x128 : Shape := ⟨2, ![8, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x10000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8x10000x128, .f32⟩
  | .hbm, ⟨8, _⟩ => ⟨S1x1x128, .f32⟩
  | .hbm, ⟨9, _⟩ => ⟨S8x10000x128, .f32⟩
  | .hbm, ⟨10, _⟩ => ⟨S8x10000x128, .f32⟩
  | .hbm, ⟨11, _⟩ => ⟨S_, .f32⟩
  | .hbm, ⟨12, _⟩ => ⟨S8x10000x128, .f32⟩
  | .hbm, ⟨13, _⟩ => ⟨S8x10000x128, .f32⟩
  | .hbm, ⟨14, _⟩ => ⟨S8x10000x128, .f32⟩
  | .hbm, ⟨15, _⟩ => ⟨S1x1x128, .f32⟩
  | .hbm, ⟨16, _⟩ => ⟨S8x10000x128, .f32⟩
  | .hbm, ⟨17, _⟩ => ⟨S8x10000x128, .f32⟩
  | .hbm, ⟨18, _⟩ => ⟨S_, .f32⟩
  | .hbm, ⟨19, _⟩ => ⟨S8x10000x128, .f32⟩
  | .hbm, ⟨20, _⟩ => ⟨S8x10000x128, .f32⟩
  | .hbm, ⟨21, _⟩ => ⟨S_, .f32⟩
  | .hbm, ⟨22, _⟩ => ⟨S8x128, .f32⟩
  | .hbm, ⟨23, _⟩ => ⟨S_, .f32⟩
  | .hbm, ⟨24, _⟩ => ⟨S8x128, .f32⟩
  | .hbm, ⟨25, _⟩ => ⟨S8x128, .f32⟩
  | .hbm, ⟨26, _⟩ => ⟨S8x128, .f32⟩
  | .hbm, ⟨27, _⟩ => ⟨S1x128, .f32⟩
  | .hbm, ⟨28, _⟩ => ⟨S8x128, .f32⟩
  | .hbm, ⟨29, _⟩ => ⟨S8x128, .f32⟩
  | _, _ => ⟨S8x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x10000x128_0_1_2 : S1x1x128.BroadcastsInDim S8x10000x128 (![0, 1, 2] : Fin 3 → Fin S8x10000x128.rank)
  bcast_S_S8x10000x128 : S_.BroadcastsInDim S8x10000x128 (![] : Fin 0 → Fin S8x10000x128.rank)
  reducesTo_S8x10000x128_S8x128_d1 : S8x10000x128.ReducesTo [1] S8x128
  h_S_ : 0 < S_.numel
  bcast_S_S8x128 : S_.BroadcastsInDim S8x128 (![] : Fin 0 → Fin S8x128.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  dot_S8x10000x128_S128x128_S8x10000x128_2_0_01_1_n_n_wf : DotDims.WF S8x10000x128 S128x128 S8x10000x128 [2] [0] [0, 1] [1] [] []
  dot_S8x128_S128x128_S8x128_1_0_0_1_n_n_wf : DotDims.WF S8x128 S128x128 S8x128 [1] [0] [0] [1] [] []

variable [Facts₀]

def dot_S8x10000x128_S128x128_S8x10000x128_2_0_01_1_n_n : DotDims S8x10000x128 S128x128 S8x10000x128 where
  lhsContracting := [2]
  rhsContracting := [0]
  lhsNonContracting := [0, 1]
  rhsNonContracting := [1]
  lhsBatch := []
  rhsBatch := []
  wf := dot_S8x10000x128_S128x128_S8x10000x128_2_0_01_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf

class Facts : Prop extends Facts₀ where

variable [Facts]
-- ==== Proof.Spec.lean ====
/-
  The pooled two-layer encoder as ONE function of its seven argument arrays, on the extended reals.

  A node's feature row `x : Fin 128 → EReal` goes through two dense layers, each a product with a weight matrix
  plus a bias, cut off below at zero; the second layer's outputs are summed over the 10000 nodes of a batch entry,
  the sum is scaled by 1/10000 (the mean over the nodes), and the pooled row goes through a last dense layer with
  no cut-off. A sum over the nodes taken block by block — a running total that starts at zero and receives one
  block's sum of 1000 nodes at a time — is the same sum: addition on the extended reals is commutative and
  associative, so no finiteness is asked of the entries.
-/
import Idealize.ShloMosaic.PureOps.Ideal
import Idealize.ShloMosaic.Lib.ValueIdx

noncomputable section

open scoped BigOperators

namespace Cert.Encoder

open Idealize.ShloMosaic Idealize.ShloMosaic.ValueIdx

/-- A batch of node features, a weight matrix, a bias vector, the pooled output: the arrays' types. -/
abbrev Feats := (⟨3, ![8, 10000, 128]⟩ : Shape).Idx → EReal
abbrev Weights := (⟨2, ![128, 128]⟩ : Shape).Idx → EReal
abbrev Bias := (⟨1, ![128]⟩ : Shape).Idx → EReal
abbrev Pooled := (⟨2, ![8, 128]⟩ : Shape).Idx → EReal

/-- One dense layer with the cut-off at zero, on one row: entry `d` is `max (∑ f, h f * w (f, d) + b d) 0`. -/
def dense (h : Fin 128 → EReal) (w : Weights) (b : Fin 128 → EReal) (d : Fin 128) : EReal :=
  max ((∑ f : Fin 128, h f * w (ix2 f d)) + b d) 0

/-- A node's row after both layers. -/
def node (x : Fin 128 → EReal) (w0 : Weights) (b0 : Fin 128 → EReal) (w1 : Weights) (b1 : Fin 128 → EReal) :
    Fin 128 → EReal :=
  dense (dense x w0 b0) w1 b1

/-- Node `n` of batch entry `p` after both layers, at feature `d`, with the node number a natural number: zero
    past the last node. -/
def nodeAt (x : Feats) (w0 : Weights) (b0 : Bias) (w1 : Weights) (b1 : Bias) (p : Fin 8) (d : Fin 128) (n : ℕ) :
    EReal :=
  if h : n < 10000 then
    node (fun f => x (ix3 p (⟨n, h⟩ : Fin 10000) f)) w0 (fun e => b0 (ix1 e)) w1 (fun e => b1 (ix1 e)) d
  else 0

/-- The sum over the first `k` nodes. -/
def nodeSum (x : Feats) (w0 : Weights) (b0 : Bias) (w1 : Weights) (b1 : Bias) (p : Fin 8) (d : Fin 128) (k : ℕ) :
    EReal :=
  ∑ n ∈ Finset.range k, nodeAt x w0 b0 w1 b1 p d n

theorem nodeSum_zero (x : Feats) (w0 : Weights) (b0 : Bias) (w1 : Weights) (b1 : Bias) (p : Fin 8) (d : Fin 128) :
    nodeSum x w0 b0 w1 b1 p d 0 = 0 := Finset.sum_range_zero _

/-- The running total grows by one block: the sum over the first `k + B` nodes is the sum over the first `k` plus
    the sum over the `B` nodes from `k` on. -/
theorem nodeSum_add (x : Feats) (w0 : Weights) (b0 : Bias) (w1 : Weights) (b1 : Bias) (p : Fin 8) (d : Fin 128)
    (k B : ℕ) :
    nodeSum x w0 b0 w1 b1 p d (k + B)
      = nodeSum x w0 b0 w1 b1 p d k + ∑ j : Fin B, nodeAt x w0 b0 w1 b1 p d (k + j.val) := by
  unfold nodeSum
  rw [Finset.sum_range_add]
  exact congrArg (_ + ·) (Finset.sum_range fun j => nodeAt x w0 b0 w1 b1 p d (k + j))

/-- Over all 10000 nodes the range sum is the sum over the node axis. -/
theorem nodeSum_all (x : Feats) (w0 : Weights) (b0 : Bias) (w1 : Weights) (b1 : Bias) (p : Fin 8) (d : Fin 128) :
    nodeSum x w0 b0 w1 b1 p d 10000
      = ∑ n : Fin 10000, node (fun f => x (ix3 p n f)) w0 (fun e => b0 (ix1 e)) w1 (fun e => b1 (ix1 e)) d := by
  unfold nodeSum
  rw [Finset.sum_range]
  refine Finset.sum_congr rfl fun n _ => ?_
  unfold nodeAt
  rw [dif_pos n.isLt]

/-- The last layer on a pooled row of node sums: scale by 1/10000, multiply by the output weights, add the bias. -/
def head (s : Fin 128 → EReal) (wo : Weights) (bo : Fin 128 → EReal) (o : Fin 128) : EReal :=
  (∑ k : Fin 128, (s k * ((1 / 10000 : ℝ) : EReal)) * wo (ix2 k o)) + bo o

/-- THE ENCODER: the result array as one function of the seven argument arrays. -/
def encoder (x : Feats) (w0 : Weights) (b0 : Bias) (w1 : Weights) (b1 : Bias) (wo : Weights) (bo : Bias) : Pooled :=
  fun j => head (fun k => nodeSum x w0 b0 w1 b1 (j 0) k 10000) wo (fun e => bo (ix1 e)) (j 1)

end Cert.Encoder

end
-- ==== Proof.Consts.lean ====
/-
  The one float word of the two programs that is read as a number: the reference's divisor 10000.0.
-/
import Idealize.ShloMosaic.PureOps.Ideal

noncomputable section

namespace Cert.Encoder.Consts

open Idealize.ShloMosaic

/-- The f32 word 0x461C4000 is the real number 10000. -/
theorem ofBits_10000 : Ideal.ofBits .f32 0x461C4000#32 = ((10000 : ℝ) : EReal) := by
  simp [Ideal.ofBits, Ideal.ieee, -EReal.coe_mul]; norm_num

end Cert.Encoder.Consts

end
-- ==== Proof.RefEncoder.lean ====
/-
  The reference computes the encoder.

  Read one operation at a time, the reference's result at `(p, o)` is: the product of the pooled row of batch
  entry `p` with column `o` of the output weights, plus the output bias; the pooled row is the node sum divided by
  10000, and dividing an extended real by the real 10000 is multiplying it by 1/10000; the node sum runs over the
  node axis of the second layer's output, and each layer's output at `(p, n, d)` is the product of node `n`'s row
  with column `d` of the layer's weights, plus the bias, cut off below at zero.
-/
import proofs.«142899_g28527172780593_cont_9to1_767_9_alg».proof.Proof.Gen.ReferenceIdeal.Read
import proofs.«142899_g28527172780593_cont_9to1_767_9_alg».proof.Proof.Spec
import proofs.«142899_g28527172780593_cont_9to1_767_9_alg».proof.Proof.Consts

noncomputable section

open scoped BigOperators

namespace Cert.Encoder.Ref

open Idealize.ShloMosaic Idealize.ShloMosaic.ValueIdx Cert.ReferenceIdeal Cert.ReferenceIdeal.Read Cert.Encoder

variable (x0 : Feats) (x1 : Weights) (x2 : Bias) (x3 : Weights) (x4 : Bias) (x5 : Weights) (x6 : Bias)

/-- The first layer's output at `(p, n, d)`. -/
theorem layer1 (p : Fin 8) (n : Fin 10000) (d : Fin 128) :
    val_main_v4 (F := Ideal) x0 x1 x2 (ix3 p n d)
      = dense (fun f => x0 (ix3 p n f)) x1 (fun e => x2 (ix1 e)) d := by
  have e1 : ∀ k : Fin 128, lidx_main_v0 (ix3 p n d) k = ix3 p n k := fun k =>
    funext fun a => Fin.ext (by match a with | ⟨0, _⟩ => rfl | ⟨1, _⟩ => rfl | ⟨2, _⟩ => rfl)
  have e2 : ∀ k : Fin 128, ridx_main_v0 (ix3 p n d) k = ix2 k d := fun k =>
    funext fun a => Fin.ext (by match a with | ⟨0, _⟩ => rfl | ⟨1, _⟩ => rfl)
  have e3 : idx_main_v1 (idx_main_v2 (ix3 p n d)) = ix1 d :=
    funext fun a => Fin.ext (by match a with | ⟨0, _⟩ => rfl)
  rw [val_main_v4_apply, val_main_v3_apply, val_main_v0_apply, val_main_v2_apply, val_main_v1_apply,
    val_main_call0_v0_apply, val_main_call0_cst_apply]
  unfold dense
  simp only [e1, e2, e3, Ideal.addf_def, Ideal.maximumf_def, Ideal.ofBits_def, Ideal.ofBits_zero_f32]

/-- The second layer's output at `(p, n, d)`: the node's row after both layers. -/
theorem layer2 (p : Fin 8) (n : Fin 10000) (d : Fin 128) :
    val_main_v9 (F := Ideal) x0 x1 x2 x3 x4 (ix3 p n d)
      = node (fun f => x0 (ix3 p n f)) x1 (fun e => x2 (ix1 e)) x3 (fun e => x4 (ix1 e)) d := by
  have e1 : ∀ k : Fin 128, lidx_main_v5 (ix3 p n d) k = ix3 p n k := fun k =>
    funext fun a => Fin.ext (by match a with | ⟨0, _⟩ => rfl | ⟨1, _⟩ => rfl | ⟨2, _⟩ => rfl)
  have e2 : ∀ k : Fin 128, ridx_main_v5 (ix3 p n d) k = ix2 k d := fun k =>
    funext fun a => Fin.ext (by match a with | ⟨0, _⟩ => rfl | ⟨1, _⟩ => rfl)
  have e3 : idx_main_v6 (idx_main_v7 (ix3 p n d)) = ix1 d :=
    funext fun a => Fin.ext (by match a with | ⟨0, _⟩ => rfl)
  rw [val_main_v9_apply, val_main_v8_apply, val_main_v5_apply, val_main_v7_apply, val_main_v6_apply,
    val_main_call1_v0_apply, val_main_call1_cst_apply]
  unfold node
  rw [show dense (dense (fun f => x0 (ix3 p n f)) x1 fun e => x2 (ix1 e)) x3 (fun e => x4 (ix1 e)) d
      = max ((∑ f : Fin 128, dense (fun f => x0 (ix3 p n f)) x1 (fun e => x2 (ix1 e)) f * x3 (ix2 f d)) + x4 (ix1 d)) 0
      from rfl]
  simp only [e1, e2, e3, layer1, Ideal.addf_def, Ideal.maximumf_def, Ideal.ofBits_def, Ideal.ofBits_zero_f32]

/-- The sum over the node axis at `(p, d)`. -/
theorem pooled (p : Fin 8) (d : Fin 128) :
    val_main_v10 (F := Ideal) x0 x1 x2 x3 x4 (ix2 p d) = nodeSum x0 x1 x2 x3 x4 p d 10000 := by
  have e1 : ∀ k : Fin 10000, idx_main_v10 (ix2 p d) k = ix3 p k d := fun k =>
    funext fun a => Fin.ext (by match a with | ⟨0, _⟩ => rfl | ⟨1, _⟩ => rfl | ⟨2, _⟩ => rfl)
  rw [val_main_v10_apply, val_main_cst_apply, nodeSum_all]
  simp only [e1, layer2, Ideal.ofBits_def, Ideal.ofBits_zero_f32, zero_add]

/-- The reference's result is the encoder of its arguments. -/
theorem result_eq :
    val_main_v16 (F := Ideal) x0 x1 x2 x3 x4 x5 x6 = encoder x0 x1 x2 x3 x4 x5 x6 := by
  funext j
  obtain ⟨p, o, rfl⟩ : ∃ (p : Fin 8) (o : Fin 128), j = ix2 p o := ⟨j 0, j 1, eq_ix2 j⟩
  have e1 : ∀ k : Fin 128, lidx_main_v13 (ix2 p o) k = ix2 p k := fun k =>
    funext fun a => Fin.ext (by match a with | ⟨0, _⟩ => rfl | ⟨1, _⟩ => rfl)
  have e2 : ∀ k : Fin 128, ridx_main_v13 (ix2 p o) k = ix2 k o := fun k =>
    funext fun a => Fin.ext (by match a with | ⟨0, _⟩ => rfl | ⟨1, _⟩ => rfl)
  have e3 : idx_main_v14 (idx_main_v15 (ix2 p o)) = ix1 o :=
    funext fun a => Fin.ext (by match a with | ⟨0, _⟩ => rfl)
  rw [val_main_v16_apply, val_main_v13_apply, val_main_v15_apply, val_main_v14_apply]
  show _ = head (fun k => nodeSum x0 x1 x2 x3 x4 p k 10000) x5 (fun e => x6 (ix1 e)) o
  unfold head
  simp only [e1, e2, e3, val_main_v12_apply, val_main_v11_apply, val_main_cst_0_apply, pooled, Ideal.addf_def,
    Ideal.hostDivf_def, Ideal.ofBits_def, Consts.ofBits_10000, Ideal.div_coe (by norm_num : (10000 : ℝ) ≠ 0)]

end Cert.Encoder.Ref

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.Payload.lean ====
/-
  What the kernel's body computes, read at an index.

  At a grid point the body holds a block of 1000 nodes of each of the 8 batch entries, laid out as a tall matrix
  of 8000 rows: row `p * 1000 + j` is node `j` of entry `p`. It multiplies the tall matrix by the first weights,
  adds the first bias row and cuts off at zero, does the same with the second weights and bias, stacks the rows
  back into 8 blocks of 1000 and adds up each block: entry `(p, d)` of what it adds to the running total is the
  sum over the block's nodes `j` of node `j`'s row after both layers, at feature `d`. At the last point it scales
  the running total by the named constant 1/10000, multiplies by the output weights and adds the output bias row.
  A change of float format is the identity on the extended reals.
-/
import proofs.«142899_g28527172780593_cont_9to1_767_9_alg».proof.Proof.Gen.KernelIdeal.Skeleton
import proofs.«142899_g28527172780593_cont_9to1_767_9_alg».proof.Proof.Spec
import proofs.«142899_g28527172780593_cont_9to1_767_9_alg».proof.Proof.LibAxisReads
import proofs.«142899_g28527172780593_cont_9to1_767_9_alg».proof.Proof.LibMatmulPlain
import Idealize.ShloMosaic.Lib.ValueLayout
import Idealize.ShloMosaic.PureOps.IdealRules

noncomputable section

open scoped BigOperators

namespace Cert.Encoder.Body

open Idealize.ShloMosaic Idealize.ShloMosaic.ValueIdx Cert.KernelIdeal Cert.KernelIdeal.Gen Cert.Encoder

section AnyValues

variable {F : FTy → Type} [FloatOps F] [Named F]

/-- One dense layer with the cut-off on a tall block of rows: the product with the weights from the zero
    accumulator, the bias row repeated down the rows, the maximum with zero. -/
def layerBlk (l : FVec F S8000x128 .bf16) (w : Vec F S128x128 .bf16) (b : Vec F S1x128 .bf16) :
    FVec F S8000x128 .f32 :=
  maximumf
    (addf
      (matmul dot_S8000x128_S128x128_S8000x128_1_0_0_1_n_n none l (shapeCast S128x128 w shapeCasts_S128x128_S128x128)
        (constant S8000x128 .f32 0x00000000#32))
      (broadcastTo S8000x128 (extf .f32 (shapeCast S1x128 b shapeCasts_S1x128_S1x128) bitsLt_bf16_f32)
        broadcasts_S1x128_S8000x128))
    (broadcast S8000x128 (Scalar.ofBits .f32 0x00000000#32))

/-- The payload of the store into the running total, as one expression: the total as loaded plus the block sums
    of the two layers' output. -/
theorem pay3_eq (v3 : Vec F S8x1000x128 .f32) (v6 : Vec F S128x128 .bf16) (v9 : Vec F S1x128 .bf16)
    (v17 : Vec F S128x128 .bf16) (v20 : Vec F S1x128 .bf16) (v27 : Vec F S8x128 .f32) :
    k0_pay3 v3 v6 v9 v17 v20 v27
      = shapeCast S8x128 (addf v27 (multiReduction .add [1] S8x128
          (shapeCast S8x1000x128
            (layerBlk (truncf .bf16
              (layerBlk (truncf .bf16 (shapeCast S8000x128 v3 shapeCasts_S8x1000x128_S8000x128) bitsLt_bf16_f32) v6 v9)
              bitsLt_bf16_f32) v17 v20)
            shapeCasts_S8000x128_S8x1000x128)
          0x00000000#32 reduces_S8x1000x128_S8x128 (.inl rfl) rfl)) shapeCasts_S8x128_S8x128 := rfl

/-- The output's payload as one expression. -/
theorem pay1_eq (v37 : Vec F S8x128 .f32) (v41 : Vec F S128x128 .bf16) (v44 : Vec F S1x128 .f32) :
    k0_pay1 v37 v41 v44
      = addf
          (matmul dot_S8x128_S128x128_S8x128_1_0_0_1_n_n none
            (truncf .bf16 (mulf v37 (broadcast S8x128 (Named.named κ "inv_10000" (φ := .f32) 0x38D1B717#32)))
              bitsLt_bf16_f32)
            (shapeCast S128x128 v41 shapeCasts_S128x128_S128x128) (constant S8x128 .f32 0x00000000#32))
          (broadcastTo S8x128 (shapeCast S1x128 v44 shapeCasts_S1x128_S1x128) broadcasts_S1x128_S8x128) := rfl

/-- The reset's payload as one expression. -/
theorem pay2_eq :
    k0_pay2 (F := F) = shapeCast S8x128 (broadcast S8x128 (Scalar.ofBits .f32 0x00000000#32)) shapeCasts_S8x128_S8x128 :=
  rfl

end AnyValues

/-- Row `r` of a layer's output is the dense layer of row `r` of its input. -/
theorem layerBlk_apply (l : FVec Ideal S8000x128 .bf16) (w : Vec Ideal S128x128 .bf16) (b : Vec Ideal S1x128 .bf16)
    (r : Fin 8000) (d : Fin 128) :
    layerBlk l w b (ix2 r d) = dense (fun f => l (ix2 r f)) w (fun e => b (ix2 (0 : Fin 1) e)) d := by
  unfold layerBlk dense
  simp only [matmul]
  rw [maximumf_apply, addf_apply, broadcast_apply, shapeCast_self, shapeCast_self,
    Cert.MatmulPlain.matmul_plain_apply _ rfl rfl rfl rfl rfl rfl, broadcastTo_1b_ab_apply]
  show max (_ + b (ix2 (0 : Fin 1) d)) (Ideal.ofBits .f32 0x00000000#32) = _
  rw [Ideal.ofBits_zero_f32]

/-- What the body adds into the running total at `(p, d)`: the total as loaded, plus the sum over the block's
    nodes of the node's row after both layers. -/
theorem pay3_apply (v3 : Vec Ideal S8x1000x128 .f32) (v6 : Vec Ideal S128x128 .bf16) (v9 : Vec Ideal S1x128 .bf16)
    (v17 : Vec Ideal S128x128 .bf16) (v20 : Vec Ideal S1x128 .bf16) (v27 : Vec Ideal S8x128 .f32)
    (p : Fin 8) (d : Fin 128) :
    k0_pay3 (F := Ideal) v3 v6 v9 v17 v20 v27 (ix2 p d)
      = v27 (ix2 p d) + ∑ j : Fin 1000,
          node (fun f => v3 (ix3 p j f)) v6 (fun e => v9 (ix2 (0 : Fin 1) e)) v17 (fun e => v20 (ix2 (0 : Fin 1) e)) d := by
  rw [pay3_eq, shapeCast_self, addf_apply, Cert.AxisReads.sum_mid]
  refine congrArg (v27 (ix2 p d) + ·) (Finset.sum_congr rfl fun j _ => ?_)
  have hlt : p.val * 1000 + j.val < 8000 := by have := p.isLt; have := j.isLt; omega
  rw [Cert.AxisReads.shapeCast_tall_stack_apply _ _ (⟨p.val * 1000 + j.val, hlt⟩ : Fin 8000) p j d rfl,
    layerBlk_apply]
  unfold node
  refine congrArg (fun h => dense h v17 (fun e => v20 (ix2 (0 : Fin 1) e)) d) (funext fun f => ?_)
  show layerBlk _ v6 v9 (ix2 _ f) = _
  rw [layerBlk_apply]
  refine congrArg (fun h => dense h v6 (fun e => v9 (ix2 (0 : Fin 1) e)) f) (funext fun g => ?_)
  exact Cert.AxisReads.shapeCast_stack_tall_apply v3 _ (⟨p.val * 1000 + j.val, hlt⟩ : Fin 8000) p j g rfl

/-- The reset's payload is the zero block. -/
theorem pay2_apply (j : S8x128.Idx) : k0_pay2 (F := Ideal) j = 0 := by
  rw [pay2_eq, shapeCast_self]
  exact Ideal.ofBits_zero_f32

/-- The named constant is the rational 1/10000. -/
theorem inv_nodes :
    Named.named (F := Ideal) κ "inv_10000" (φ := .f32) 0x38D1B717#32 = ((1 / 10000 : ℝ) : EReal) :=
  IdealRules.named_const.ideal_named_scalar _ _ _ _ rfl

/-- The output at `(p, o)`: the last layer on row `p` of the running total. -/
theorem pay1_apply (v37 : Vec Ideal S8x128 .f32) (v41 : Vec Ideal S128x128 .bf16) (v44 : Vec Ideal S1x128 .f32)
    (p : Fin 8) (o : Fin 128) :
    k0_pay1 (F := Ideal) v37 v41 v44 (ix2 p o)
      = head (fun k => v37 (ix2 p k)) v41 (fun e => v44 (ix2 (0 : Fin 1) e)) o := by
  rw [pay1_eq]
  simp only [matmul]
  rw [addf_apply, shapeCast_self, shapeCast_self, Cert.MatmulPlain.matmul_plain_apply _ rfl rfl rfl rfl rfl rfl,
    broadcastTo_1b_ab_apply]
  unfold head
  refine congrArg (· + v44 (ix2 (0 : Fin 1) o)) (Finset.sum_congr rfl fun k _ => ?_)
  show (v37 (ix2 p k) * Named.named (F := Ideal) κ "inv_10000" (φ := .f32) 0x38D1B717#32) * v41 (ix2 k o) = _
  rw [inv_nodes]

end Cert.Encoder.Body

end
-- ==== Proof.Step.lean ====
/-
  One grid point's contribution to the running total, in terms of the argument arrays.

  When the point's input block holds nodes `1000 * t` to `1000 * t + 999` of every batch entry, and its weight and
  bias blocks hold the weights and biases, what the body stores into the running total at `(p, d)` is what it
  loaded plus the node values of those 1000 nodes; and at the last point the output block is the last layer of
  the running total.
-/
import proofs.«142899_g28527172780593_cont_9to1_767_9_alg».proof.Proof.Payload

noncomputable section

open scoped BigOperators

namespace Cert.Encoder.Body

open Idealize.ShloMosaic Idealize.ShloMosaic.ValueIdx Cert.KernelIdeal Cert.KernelIdeal.Gen Cert.Encoder

/-- The store into the running total at a point whose block starts at node `1000 * tv`. -/
theorem pay3_step (X : Feats) (W0 : Weights) (B0 : Bias) (W1 : Weights) (B1 : Bias) (tv : ℕ)
    (x0 : Vec Ideal S8x1000x128 .f32) (x1 : Vec Ideal S128x128 .bf16) (x2 : Vec Ideal S1x128 .bf16)
    (x3 : Vec Ideal S128x128 .bf16) (x4 : Vec Ideal S1x128 .bf16) (acc : Vec Ideal S8x128 .f32)
    (h0 : ∀ (p : Fin 8) (j : Fin 1000) (f : Fin 128) (hlt : 1000 * tv + j.val < 10000),
      x0 (ix3 p j f) = X (ix3 p (⟨1000 * tv + j.val, hlt⟩ : Fin 10000) f))
    (h1 : ∀ i, x1 i = W0 i) (h2 : ∀ e : Fin 128, x2 (ix2 (0 : Fin 1) e) = B0 (ix1 e))
    (h3 : ∀ i, x3 i = W1 i) (h4 : ∀ e : Fin 128, x4 (ix2 (0 : Fin 1) e) = B1 (ix1 e))
    (ht : tv < 10) (p : Fin 8) (d : Fin 128) :
    k0_pay3 (F := Ideal) x0 x1 x2 x3 x4 acc (ix2 p d)
      = acc (ix2 p d) + ∑ j : Fin 1000, nodeAt X W0 B0 W1 B1 p d (1000 * tv + j.val) := by
  rw [pay3_apply]
  refine congrArg (acc (ix2 p d) + ·) (Finset.sum_congr rfl fun j _ => ?_)
  have hlt : 1000 * tv + j.val < 10000 := by have := j.isLt; omega
  unfold nodeAt
  rw [dif_pos hlt]
  have e0 : (fun f => x0 (ix3 p j f)) = fun f => X (ix3 p (⟨1000 * tv + j.val, hlt⟩ : Fin 10000) f) :=
    funext fun f => h0 p j f hlt
  have e1 : x1 = W0 := funext h1
  have e2 : (fun e => x2 (ix2 (0 : Fin 1) e)) = fun e => B0 (ix1 e) := funext h2
  have e3 : x3 = W1 := funext h3
  have e4 : (fun e => x4 (ix2 (0 : Fin 1) e)) = fun e => B1 (ix1 e) := funext h4
  rw [e0, e1, e2, e3, e4]

/-- The output block at `(p, o)` when the running total holds the node sums over all 10000 nodes. -/
theorem pay1_step (X : Feats) (W0 : Weights) (B0 : Bias) (W1 : Weights) (B1 : Bias) (Wo : Weights) (Bo : Bias)
    (tot : Vec Ideal S8x128 .f32) (x5 : Vec Ideal S128x128 .bf16) (x6 : Vec Ideal S1x128 .f32)
    (htot : ∀ (p : Fin 8) (k : Fin 128), tot (ix2 p k) = nodeSum X W0 B0 W1 B1 p k 10000)
    (h5 : ∀ i, x5 i = Wo i) (h6 : ∀ e : Fin 128, x6 (ix2 (0 : Fin 1) e) = Bo (ix1 e)) (p : Fin 8) (o : Fin 128) :
    k0_pay1 (F := Ideal) tot x5 x6 (ix2 p o) = encoder X W0 B0 W1 B1 Wo Bo (ix2 p o) := by
  rw [pay1_apply]
  show _ = head (fun k => nodeSum X W0 B0 W1 B1 p k 10000) Wo (fun e => Bo (ix1 e)) o
  have e0 : (fun k => tot (ix2 p k)) = fun k => nodeSum X W0 B0 W1 B1 p k 10000 := funext fun k => htot p k
  have e5 : x5 = Wo := funext h5
  have e6 : (fun e => x6 (ix2 (0 : Fin 1) e)) = fun e => Bo (ix1 e) := funext h6
  rw [e0, e5, e6]

end Cert.Encoder.Body

end
-- ==== Proof.Pieces.lean ====
/-
  What each control case of the body leaves behind, as values.

  At the first grid point the body stores the zero block into the running total, reads it back, and stores the
  total plus the block's sums; at the other points it loads the running total the point before left and stores it
  plus the block's sums; at the last point it then reads the running total back once more and stores the output
  block, the last layer of the scaled total. Every store covers its whole buffer and every load reads a whole
  buffer, so what a buffer ends holding is the last store's payload, a function of the input blocks and of the
  running total the point found.
-/
import proofs.«142899_g28527172780593_cont_9to1_767_9_alg».proof.Proof.Gen.KernelIdeal.Frame
import Idealize.ShloMosaic.Lib.Pipeline.Value
import Idealize.ShloMosaic.Lib.Tactic

set_option maxRecDepth 16384

noncomputable section

namespace Cert.Encoder.Pieces

open Idealize.ShloMosaic Idealize.ShloMosaic.TcCoe Idealize.ShloMosaic.Tactic Idealize.SL.Sem Cert.KernelIdeal Cert.KernelIdeal.Gen

variable {F : FTy → Type} [FloatOps F] [Named F]

/-- The zero offsets of a whole-buffer access, at ranks two and three. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the running total ends at the zero block plus the block's sums. -/
theorem scratch_A (c : Dev nD) (i : grid0.Coords) (arg1 : Memref sig .tc .vmem S8x1000x128 .f32) (harg1 : arg1.IsWhole) (arg2 : Memref sig .tc .vmem S128x128 .bf16) (harg2 : arg2.IsWhole) (arg3 : Memref sig .tc .vmem S1x128 .bf16) (harg3 : arg3.IsWhole) (arg4 : Memref sig .tc .vmem S128x128 .bf16) (harg4 : arg4.IsWhole) (arg5 : Memref sig .tc .vmem S1x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S8x1000x128 .f32) (x1 : Vec F S128x128 .bf16) (x2 : Vec F S1x128 .bf16) (x3 : Vec F S128x128 .bf16) (x4 : Vec F S1x128 .bf16) (x5 : Vec F S128x128 .bf16) (x6 : Vec F S1x128 .f32) :
    sout0_A_0 c i arg1 harg1 arg2 harg2 arg3 harg3 arg4 harg4 arg5 harg5 arg6 harg6 arg7 harg7 arg8 harg8 arg9 harg9 hc0 hc1 x0 x1 x2 x3 x4 x5 x6 = k0_pay3 x0 x1 x2 x3 x4 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S8x128) hz2, View.readCov_unit_zero (S := S8x128) _ hz2]
  simp only [View.readAt_eq_ld, harg1.read_unread, harg2.read_unread, harg3.read_unread, harg4.read_unread, harg5.read_unread, View.ld_unit_zero (S := S8x1000x128) hz3,
    View.ld_unit_zero (S := S128x128) hz2, View.ld_unit_zero (S := S1x128) hz2, View.ld_unit_zero (S := S8x128) hz2]

/-- At a middle point the running total ends at what the point before left plus the block's sums. -/
theorem scratch_B (c : Dev nD) (i : grid0.Coords) (arg1 : Memref sig .tc .vmem S8x1000x128 .f32) (harg1 : arg1.IsWhole) (arg2 : Memref sig .tc .vmem S128x128 .bf16) (harg2 : arg2.IsWhole) (arg3 : Memref sig .tc .vmem S1x128 .bf16) (harg3 : arg3.IsWhole) (arg4 : Memref sig .tc .vmem S128x128 .bf16) (harg4 : arg4.IsWhole) (arg5 : Memref sig .tc .vmem S1x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S8x1000x128 .f32) (x1 : Vec F S128x128 .bf16) (x2 : Vec F S1x128 .bf16) (x3 : Vec F S128x128 .bf16) (x4 : Vec F S1x128 .bf16) (x5 : Vec F S128x128 .bf16) (x6 : Vec F S1x128 .f32) (xs0 : Vec F S8x128 .f32) :
    sout0_B_0 c i arg1 harg1 arg2 harg2 arg3 harg3 arg4 harg4 arg5 harg5 arg6 harg6 arg7 harg7 arg8 harg8 arg9 harg9 hc0 hc1 x0 x1 x2 x3 x4 x5 x6 xs0 = k0_pay3 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 x6 xs0)]
  unfold kernelRun0_B
  dsimp only
  rw [View.canon_unit_zero hz2]
  simp only [View.readAt_eq_ld, harg1.read_unread, harg2.read_unread, harg3.read_unread, harg4.read_unread, harg5.read_unread, harg9.read_unread, View.ld_unit_zero (S := S8x1000x128) hz3,
    View.ld_unit_zero (S := S128x128) hz2, View.ld_unit_zero (S := S1x128) hz2, View.ld_unit_zero (S := S8x128) hz2]

/-- At the last point likewise. -/
theorem scratch_C (c : Dev nD) (i : grid0.Coords) (arg1 : Memref sig .tc .vmem S8x1000x128 .f32) (harg1 : arg1.IsWhole) (arg2 : Memref sig .tc .vmem S128x128 .bf16) (harg2 : arg2.IsWhole) (arg3 : Memref sig .tc .vmem S1x128 .bf16) (harg3 : arg3.IsWhole) (arg4 : Memref sig .tc .vmem S128x128 .bf16) (harg4 : arg4.IsWhole) (arg5 : Memref sig .tc .vmem S1x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S8x1000x128 .f32) (x1 : Vec F S128x128 .bf16) (x2 : Vec F S1x128 .bf16) (x3 : Vec F S128x128 .bf16) (x4 : Vec F S1x128 .bf16) (x5 : Vec F S128x128 .bf16) (x6 : Vec F S1x128 .f32) (xs0 : Vec F S8x128 .f32) :
    sout0_C_0 c i arg1 harg1 arg2 harg2 arg3 harg3 arg4 harg4 arg5 harg5 arg6 harg6 arg7 harg7 arg8 harg8 arg9 harg9 hc0 hc1 x0 x1 x2 x3 x4 x5 x6 xs0 = k0_pay3 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz2]
  simp only [View.readAt_eq_ld, harg1.read_unread, harg2.read_unread, harg3.read_unread, harg4.read_unread, harg5.read_unread, harg9.read_unread, View.ld_unit_zero (S := S8x1000x128) hz3,
    View.ld_unit_zero (S := S128x128) hz2, View.ld_unit_zero (S := S1x128) hz2, View.ld_unit_zero (S := S8x128) hz2]

/-- At the last point the output block ends at the last layer of the running total just stored. -/
theorem out_C (c : Dev nD) (i : grid0.Coords) (arg1 : Memref sig .tc .vmem S8x1000x128 .f32) (harg1 : arg1.IsWhole) (arg2 : Memref sig .tc .vmem S128x128 .bf16) (harg2 : arg2.IsWhole) (arg3 : Memref sig .tc .vmem S1x128 .bf16) (harg3 : arg3.IsWhole) (arg4 : Memref sig .tc .vmem S128x128 .bf16) (harg4 : arg4.IsWhole) (arg5 : Memref sig .tc .vmem S1x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S8x1000x128 .f32) (x1 : Vec F S128x128 .bf16) (x2 : Vec F S1x128 .bf16) (x3 : Vec F S128x128 .bf16) (x4 : Vec F S1x128 .bf16) (x5 : Vec F S128x128 .bf16) (x6 : Vec F S1x128 .f32) (xs0 : Vec F S8x128 .f32) :
    out0_C_7 c i arg1 harg1 arg2 harg2 arg3 harg3 arg4 harg4 arg5 harg5 arg6 harg6 arg7 harg7 arg8 harg8 arg9 harg9 hc0 hc1 x0 x1 x2 x3 x4 x5 x6 xs0 = k0_pay1 (k0_pay3 x0 x1 x2 x3 x4 xs0) x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz2, View.readCov_unit_zero (S := S8x128) _ hz2]
  simp only [View.readAt_eq_ld, harg1.read_unread, harg2.read_unread, harg3.read_unread, harg4.read_unread, harg5.read_unread, harg6.read_unread, harg7.read_unread, harg9.read_unread, View.ld_unit_zero (S := S8x1000x128) hz3,
    View.ld_unit_zero (S := S128x128) hz2, View.ld_unit_zero (S := S1x128) hz2, View.ld_unit_zero (S := S8x128) hz2]

end Cert.Encoder.Pieces

end
-- ==== Proof.Blocks.lean ====
/-
  What the kernel's windows hold at a grid point, in terms of the argument arrays.

  The feature window's block at point `t` is nodes `1000 * t` to `1000 * t + 999` of every batch entry. The six
  other windows have one block, their whole array, at every point; those arrays are written by the host before
  the launch — each weight matrix converted to the narrower float format, each bias vector laid out as a one-row
  matrix and (two of them) converted — and on the extended reals a conversion is the identity and the one-row
  matrix holds the vector's entries in order.
-/
import proofs.«142899_g28527172780593_cont_9to1_767_9_alg».proof.Proof.Gen.KernelIdeal.Frame
import Idealize.ShloMosaic.Lib.Pipeline.Value
import Idealize.ShloMosaic.Lib.StableHlo.Run
import Idealize.ShloMosaic.Lib.ValueLayout

noncomputable section

namespace Cert.Encoder.Blocks

open Idealize.ShloMosaic Idealize.ShloMosaic.TcCoe Idealize.SL.Sem Idealize.ShloMosaic.ValueIdx
open Idealize.ShloMosaic.StableHlo Cert.KernelIdeal Cert.KernelIdeal.Gen

variable (m : (ℓ : Loc nD τ sig) → Buf (Elt Ideal) ℓ)

/-! ## Where each window's block lies -/

/-- The feature window moves along the node axis only: its block index at point `t` is `(0, t, 0)`. -/
theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
/-- Window 1 never moves. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Window 2 never moves. -/
theorem idx2 : ∀ t : Fin cfg0.N, win0_2.index t 0 = 0 ∧ win0_2.index t 1 = 0 :=
  (by decide +kernel : ∀ t : Fin grid0.N, win0_2.index t 0 = 0 ∧ win0_2.index t 1 = 0)
/-- Window 3 never moves. -/
theorem idx3 : ∀ t : Fin cfg0.N, win0_3.index t 0 = 0 ∧ win0_3.index t 1 = 0 :=
  (by decide +kernel : ∀ t : Fin grid0.N, win0_3.index t 0 = 0 ∧ win0_3.index t 1 = 0)
/-- Window 4 never moves. -/
theorem idx4 : ∀ t : Fin cfg0.N, win0_4.index t 0 = 0 ∧ win0_4.index t 1 = 0 :=
  (by decide +kernel : ∀ t : Fin grid0.N, win0_4.index t 0 = 0 ∧ win0_4.index t 1 = 0)
/-- Window 5 never moves. -/
theorem idx5 : ∀ t : Fin cfg0.N, win0_5.index t 0 = 0 ∧ win0_5.index t 1 = 0 :=
  (by decide +kernel : ∀ t : Fin grid0.N, win0_5.index t 0 = 0 ∧ win0_5.index t 1 = 0)
/-- Window 6 never moves. -/
theorem idx6 : ∀ t : Fin cfg0.N, win0_6.index t 0 = 0 ∧ win0_6.index t 1 = 0 :=
  (by decide +kernel : ∀ t : Fin grid0.N, win0_6.index t 0 = 0 ∧ win0_6.index t 1 = 0)

/-! ## The blocks as parts of the arrays the region finds -/

/-- The feature block at point `t`: node `j` of the block is node `1000 * t + j` of the argument. -/
theorem feats (c : Dev nD) (t : Fin cfg0.N) (p : Fin 8) (j : Fin 1000) (f : Fin 128)
    (hlt : 1000 * t.val + j.val < 10000) :
    (iblk m c 0 t : Vec Ideal S8x1000x128 .f32) (ix3 p j f)
      = (m ((c : Thread nD τ).loc main_arg0) : S8x10000x128.Idx → EReal)
          (ix3 p (⟨1000 * t.val + j.val, hlt⟩ : Fin 10000) f) := by
  obtain ⟨i0, i1, i2⟩ := idx0 t
  unfold iblk
  rw [View.read_apply]
  show V m c main_arg0 _ = _
  rw [V_main_arg0]
  congr 1
  funext a
  apply Fin.ext
  match a with
  | ⟨0, _⟩ => show win0_0.index t 0 * 8 + 1 * p.val = p.val; rw [i0]; omega
  | ⟨1, _⟩ => show win0_0.index t 1 * 1000 + 1 * j.val = 1000 * t.val + j.val; rw [i1]; omega
  | ⟨2, _⟩ => show win0_0.index t 2 * 128 + 1 * f.val = f.val; rw [i2]; omega

/-- Window 1's block is its whole array. -/
theorem whole1 (c : Dev nD) (t : Fin cfg0.N) (y : S128x128.Idx) :
    (iblk m c 1 t : Vec Ideal S128x128 .bf16) y = (V m c main_call0_v0 : S128x128.Idx → EReal) y := by
  obtain ⟨i0, i1⟩ := idx1 t
  unfold iblk
  rw [View.read_apply]
  show V m c main_call0_v0 _ = _
  congr 1
  funext a
  apply Fin.ext
  match a with
  | ⟨0, _⟩ => show win0_1.index t 0 * 128 + 1 * (y 0).val = (y 0).val; rw [i0]; omega
  | ⟨1, _⟩ => show win0_1.index t 1 * 128 + 1 * (y 1).val = (y 1).val; rw [i1]; omega

/-- Window 2's block is its whole array. -/
theorem whole2 (c : Dev nD) (t : Fin cfg0.N) (y : S1x128.Idx) :
    (iblk m c 2 t : Vec Ideal S1x128 .bf16) y = (V m c main_call0_v2 : S1x128.Idx → EReal) y := by
  obtain ⟨i0, i1⟩ := idx2 t
  unfold iblk
  rw [View.read_apply]
  show V m c main_call0_v2 _ = _
  congr 1
  funext a
  apply Fin.ext
  match a with
  | ⟨0, _⟩ => show win0_2.index t 0 * 1 + 1 * (y 0).val = (y 0).val; rw [i0]; omega
  | ⟨1, _⟩ => show win0_2.index t 1 * 128 + 1 * (y 1).val = (y 1).val; rw [i1]; omega

/-- Window 3's block is its whole array. -/
theorem whole3 (c : Dev nD) (t : Fin cfg0.N) (y : S128x128.Idx) :
    (iblk m c 3 t : Vec Ideal S128x128 .bf16) y = (V m c main_call0_v3 : S128x128.Idx → EReal) y := by
  obtain ⟨i0, i1⟩ := idx3 t
  unfold iblk
  rw [View.read_apply]
  show V m c main_call0_v3 _ = _
  congr 1
  funext a
  apply Fin.ext
  match a with
  | ⟨0, _⟩ => show win0_3.index t 0 * 128 + 1 * (y 0).val = (y 0).val; rw [i0]; omega
  | ⟨1, _⟩ => show win0_3.index t 1 * 128 + 1 * (y 1).val = (y 1).val; rw [i1]; omega

/-- Window 4's block is its whole array. -/
theorem whole4 (c : Dev nD) (t : Fin cfg0.N) (y : S1x128.Idx) :
    (iblk m c 4 t : Vec Ideal S1x128 .bf16) y = (V m c main_call0_v5 : S1x128.Idx → EReal) y := by
  obtain ⟨i0, i1⟩ := idx4 t
  unfold iblk
  rw [View.read_apply]
  show V m c main_call0_v5 _ = _
  congr 1
  funext a
  apply Fin.ext
  match a with
  | ⟨0, _⟩ => show win0_4.index t 0 * 1 + 1 * (y 0).val = (y 0).val; rw [i0]; omega
  | ⟨1, _⟩ => show win0_4.index t 1 * 128 + 1 * (y 1).val = (y 1).val; rw [i1]; omega

/-- Window 5's block is its whole array. -/
theorem whole5 (c : Dev nD) (t : Fin cfg0.N) (y : S128x128.Idx) :
    (iblk m c 5 t : Vec Ideal S128x128 .bf16) y = (V m c main_call0_v6 : S128x128.Idx → EReal) y := by
  obtain ⟨i0, i1⟩ := idx5 t
  unfold iblk
  rw [View.read_apply]
  show V m c main_call0_v6 _ = _
  congr 1
  funext a
  apply Fin.ext
  match a with
  | ⟨0, _⟩ => show win0_5.index t 0 * 128 + 1 * (y 0).val = (y 0).val; rw [i0]; omega
  | ⟨1, _⟩ => show win0_5.index t 1 * 128 + 1 * (y 1).val = (y 1).val; rw [i1]; omega

/-- Window 6's block is its whole array. -/
theorem whole6 (c : Dev nD) (t : Fin cfg0.N) (y : S1x128.Idx) :
    (iblk m c 6 t : Vec Ideal S1x128 .f32) y = (V m c main_call0_v7 : S1x128.Idx → EReal) y := by
  obtain ⟨i0, i1⟩ := idx6 t
  unfold iblk
  rw [View.read_apply]
  show V m c main_call0_v7 _ = _
  congr 1
  funext a
  apply Fin.ext
  match a with
  | ⟨0, _⟩ => show win0_6.index t 0 * 1 + 1 * (y 0).val = (y 0).val; rw [i0]; omega
  | ⟨1, _⟩ => show win0_6.index t 1 * 128 + 1 * (y 1).val = (y 1).val; rw [i1]; omega

/-! ## The arrays the host wrote before the launch -/

/-- The converted weights are the weights. -/
theorem host1 (c : Dev nD) :
    (V m c main_call0_v0 : S128x128.Idx → EReal) = (m ((c : Thread nD τ).loc main_arg1) : S128x128.Idx → EReal) := by
  dsimp only [V, hostOps0]; after_results; rfl

/-- The bias laid out as a one-row matrix holds the bias's entries in order. -/
theorem host2 (c : Dev nD) (e : Fin 128) :
    (V m c main_call0_v2 : S1x128.Idx → EReal) (ix2 (0 : Fin 1) e)
      = (m ((c : Thread nD τ).loc main_arg2) : S128.Idx → EReal) (ix1 e) := by
  have h : (V m c main_call0_v2 : S1x128.Idx → EReal)
      = shapeCast S1x128 (m ((c : Thread nD τ).loc main_arg2) : S128.Idx → EReal) shapeCasts_S128_S1x128 := by
    dsimp only [V, hostOps0]; after_results; rfl
  rw [h]
  exact shapeCast_a_1a_apply _ _ (0 : Fin 1) e

/-- The converted weights are the weights. -/
theorem host3 (c : Dev nD) :
    (V m c main_call0_v3 : S128x128.Idx → EReal) = (m ((c : Thread nD τ).loc main_arg3) : S128x128.Idx → EReal) := by
  dsimp only [V, hostOps0]; after_results; rfl

/-- The bias laid out as a one-row matrix holds the bias's entries in order. -/
theorem host4 (c : Dev nD) (e : Fin 128) :
    (V m c main_call0_v5 : S1x128.Idx → EReal) (ix2 (0 : Fin 1) e)
      = (m ((c : Thread nD τ).loc main_arg4) : S128.Idx → EReal) (ix1 e) := by
  have h : (V m c main_call0_v5 : S1x128.Idx → EReal)
      = shapeCast S1x128 (m ((c : Thread nD τ).loc main_arg4) : S128.Idx → EReal) shapeCasts_S128_S1x128 := by
    dsimp only [V, hostOps0]; after_results; rfl
  rw [h]
  exact shapeCast_a_1a_apply _ _ (0 : Fin 1) e

/-- The converted weights are the weights. -/
theorem host5 (c : Dev nD) :
    (V m c main_call0_v6 : S128x128.Idx → EReal) = (m ((c : Thread nD τ).loc main_arg5) : S128x128.Idx → EReal) := by
  dsimp only [V, hostOps0]; after_results; rfl

/-- The bias laid out as a one-row matrix holds the bias's entries in order. -/
theorem host6 (c : Dev nD) (e : Fin 128) :
    (V m c main_call0_v7 : S1x128.Idx → EReal) (ix2 (0 : Fin 1) e)
      = (m ((c : Thread nD τ).loc main_arg6) : S128.Idx → EReal) (ix1 e) := by
  have h : (V m c main_call0_v7 : S1x128.Idx → EReal)
      = shapeCast S1x128 (m ((c : Thread nD τ).loc main_arg6) : S128.Idx → EReal) shapeCasts_S128_S1x128 := by
    dsimp only [V, hostOps0]; after_results; rfl
  rw [h]
  exact shapeCast_a_1a_apply _ _ (0 : Fin 1) e

/-! ## Together: each block in terms of the arguments -/

theorem blk1 (c : Dev nD) (t : Fin cfg0.N) (y : S128x128.Idx) :
    (iblk m c 1 t : Vec Ideal S128x128 .bf16) y = (m ((c : Thread nD τ).loc main_arg1) : S128x128.Idx → EReal) y :=
  (whole1 m c t y).trans (congrFun (host1 m c) y)
theorem blk2 (c : Dev nD) (t : Fin cfg0.N) (e : Fin 128) :
    (iblk m c 2 t : Vec Ideal S1x128 .bf16) (ix2 (0 : Fin 1) e)
      = (m ((c : Thread nD τ).loc main_arg2) : S128.Idx → EReal) (ix1 e) :=
  (whole2 m c t _).trans (host2 m c e)
theorem blk3 (c : Dev nD) (t : Fin cfg0.N) (y : S128x128.Idx) :
    (iblk m c 3 t : Vec Ideal S128x128 .bf16) y = (m ((c : Thread nD τ).loc main_arg3) : S128x128.Idx → EReal) y :=
  (whole3 m c t y).trans (congrFun (host3 m c) y)
theorem blk4 (c : Dev nD) (t : Fin cfg0.N) (e : Fin 128) :
    (iblk m c 4 t : Vec Ideal S1x128 .bf16) (ix2 (0 : Fin 1) e)
      = (m ((c : Thread nD τ).loc main_arg4) : S128.Idx → EReal) (ix1 e) :=
  (whole4 m c t _).trans (host4 m c e)
theorem blk5 (c : Dev nD) (t : Fin cfg0.N) (y : S128x128.Idx) :
    (iblk m c 5 t : Vec Ideal S128x128 .bf16) y = (m ((c : Thread nD τ).loc main_arg5) : S128x128.Idx → EReal) y :=
  (whole5 m c t y).trans (congrFun (host5 m c) y)
theorem blk6 (c : Dev nD) (t : Fin cfg0.N) (e : Fin 128) :
    (iblk m c 6 t : Vec Ideal S1x128 .f32) (ix2 (0 : Fin 1) e)
      = (m ((c : Thread nD τ).loc main_arg6) : S128.Idx → EReal) (ix1 e) :=
  (whole6 m c t _).trans (host6 m c e)

end Cert.Encoder.Blocks

end
-- ==== Proof.KernelEncoder.lean ====
/-
  The kernel computes the encoder.

  After grid point `n` the running total holds, at `(p, d)`, the sum of the node values of the first
  `1000 * (n + 1)` nodes of batch entry `p` at feature `d`: by induction on the point — the first point starts
  from the zero block, each later point from what the point before left, and each adds its own block of 1000
  nodes. After the last point the total is the sum over all 10000 nodes, and the output block the body stores
  there is the last layer of it: the encoder of the argument arrays. The output window has one block, the whole
  result array, written back after the last point only; so the result array ends holding the encoder.
-/
import proofs.«142899_g28527172780593_cont_9to1_767_9_alg».proof.Proof.Gen.KernelIdeal.Value
import proofs.«142899_g28527172780593_cont_9to1_767_9_alg».proof.Proof.Step
import proofs.«142899_g28527172780593_cont_9to1_767_9_alg».proof.Proof.Pieces
import proofs.«142899_g28527172780593_cont_9to1_767_9_alg».proof.Proof.Blocks

noncomputable section

open scoped BigOperators

namespace Cert.Encoder.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Encoder

variable (m : (ℓ : Loc nD τ sig) → Buf (Elt Ideal) ℓ) (ρ : Dev nD → PrngReg)

/-- The argument arrays as launched, on core `c`. -/
abbrev aX (c : Dev nD) : Feats := m ((c : Thread nD τ).loc main_arg0)
abbrev aW0 (c : Dev nD) : Weights := m ((c : Thread nD τ).loc main_arg1)
abbrev aB0 (c : Dev nD) : Bias := m ((c : Thread nD τ).loc main_arg2)
abbrev aW1 (c : Dev nD) : Weights := m ((c : Thread nD τ).loc main_arg3)
abbrev aB1 (c : Dev nD) : Bias := m ((c : Thread nD τ).loc main_arg4)
abbrev aWo (c : Dev nD) : Weights := m ((c : Thread nD τ).loc main_arg5)
abbrev aBo (c : Dev nD) : Bias := m ((c : Thread nD τ).loc main_arg6)

/-- The node sum of the arguments over the first `k` nodes. -/
abbrev total (c : Dev nD) (p : Fin 8) (d : Fin 128) (k : ℕ) : EReal :=
  nodeSum (aX m c) (aW0 m c) (aB0 m c) (aW1 m c) (aB1 m c) p d k

/-- THE RESULT: the encoder of the argument arrays. -/
abbrev result (c : Dev nD) : Buf (Elt Ideal) ((c : Thread nD τ).loc main_v0) :=
  encoder (aX m c) (aW0 m c) (aB0 m c) (aW1 m c) (aB1 m c) (aWo m c) (aBo m c)

/-- What the body stores into the running total at point `t`, over what it loaded: that plus the node values of
    nodes `1000 * t` to `1000 * t + 999`. -/
theorem stored (c : Dev nD) (t : Fin cfg0.N) (acc : Vec Ideal S8x128 .f32) (p : Fin 8) (d : Fin 128) :
    k0_pay3 (F := Ideal) (iblk m c 0 t) (iblk m c 1 t) (iblk m c 2 t) (iblk m c 3 t) (iblk m c 4 t) acc (ix2 p d)
      = acc (ix2 p d) + ∑ j : Fin 1000,
          nodeAt (aX m c) (aW0 m c) (aB0 m c) (aW1 m c) (aB1 m c) p d (1000 * t.val + j.val) :=
  Body.pay3_step (aX m c) (aW0 m c) (aB0 m c) (aW1 m c) (aB1 m c) t.val (iblk m c 0 t) (iblk m c 1 t) (iblk m c 2 t) (iblk m c 3 t) (iblk m c 4 t) acc
    (fun p j f hlt => Blocks.feats m c t p j f hlt) (Blocks.blk1 m c t) (Blocks.blk2 m c t) (Blocks.blk3 m c t)
    (Blocks.blk4 m c t) (by have := t.isLt; have : cfg0.N = 10 := N_0; omega) p d

/-- The running total grows by a block of 1000 nodes. -/
theorem total_block (c : Dev nD) (p : Fin 8) (d : Fin 128) (n : ℕ) :
    total m c p d (1000 * (n + 1))
      = total m c p d (1000 * n)
        + ∑ j : Fin 1000, nodeAt (aX m c) (aW0 m c) (aB0 m c) (aW1 m c) (aB1 m c) p d (1000 * n + j.val) := by
  rw [show 1000 * (n + 1) = 1000 * n + 1000 from by omega]
  exact nodeSum_add _ _ _ _ _ p d (1000 * n) 1000

/-- THE INVARIANT: after point `n` the running total is the node sum over the first `1000 * (n + 1)` nodes. -/
theorem total_after (c : Dev nD) : ∀ (n : ℕ) (hn : n < cfg0.N) (p : Fin 8) (d : Fin 128),
    (outsAt0 m c n hn).2 (ix2 p d) = total m c p d (1000 * (n + 1))
  | 0, hn, p, d => by
    rw [outsAt0_A m c ⟨0, hn⟩ rfl (by dsimp only; omega)]
    dsimp only
    rw [Pieces.scratch_A, stored m c ⟨0, hn⟩ _ p d, Body.pay2_apply, total_block m c p d 0]
    show _ = nodeSum _ _ _ _ _ p d (1000 * 0) + _
    rw [show 1000 * 0 = 0 from rfl, nodeSum_zero]
  | n + 1, hn, p, d => by
    have hN : cfg0.N = 10 := N_0
    have h0 : ¬(⟨n + 1, hn⟩ : Fin cfg0.N).val % 10 = 0 := by dsimp only; omega
    by_cases h1 : (⟨n + 1, hn⟩ : Fin cfg0.N).val % 10 = 9
    · rw [outsAt0_C m c ⟨n + 1, hn⟩ h0 h1]
      dsimp only
      rw [Pieces.scratch_C, stored m c ⟨n + 1, hn⟩ _ p d, total_block m c p d (n + 1)]
      show (outsAt0 m c n _).2 (ix2 p d) + _ = _
      rw [total_after c n _ p d]
    · rw [outsAt0_B m c ⟨n + 1, hn⟩ h0 h1]
      dsimp only
      rw [Pieces.scratch_B, stored m c ⟨n + 1, hn⟩ _ p d, total_block m c p d (n + 1)]
      show (outsAt0 m c n _).2 (ix2 p d) + _ = _
      rw [total_after c n _ p d]

/-- What the output's staging buffer holds after the last point is the encoder. -/
theorem after_last (c : Dev nD) : (outsAt0 m c t0_9.val t0_9.isLt).1 = result m c := by
  have hC := outsAt0_C m c t0_9 (by decide) (by decide)
  funext j
  obtain ⟨p, o, rfl⟩ : ∃ (p : Fin 8) (o : Fin 128), j = ix2 p o := ⟨j 0, j 1, eq_ix2 j⟩
  rw [hC]
  dsimp only
  rw [Pieces.out_C]
  refine Body.pay1_step (aX m c) (aW0 m c) (aB0 m c) (aW1 m c) (aB1 m c) (aWo m c) (aBo m c) _
    (iblk m c 5 t0_9) (iblk m c 6 t0_9) (fun p k => ?_) (Blocks.blk5 m c t0_9) (Blocks.blk6 m c t0_9) p o
  have h := total_after m c t0_9.val t0_9.isLt p k
  rw [hC] at h
  dsimp only at h
  rw [Pieces.scratch_C] at h
  exact h

/-- The one write-back, after the last point, writes the encoder: the output's block is the whole array. -/
theorem flushed_eq (c : Dev nD) (t : Fin cfg0.N) (hf : (cfg0.win 7).flush t = true) :
    (dats m 0 c).flushed 7 t = ((cfg0.win 7).blk t).view.read (Elt Ideal) (result m c) := by
  have hN : cfg0.N = 10 := N_0
  have h9 : t.val = 9 := by have := (flush0_7 t).mp hf; have := t.isLt; omega
  obtain rfl : t = t0_9 := Fin.ext h9
  show (cfg0.win 7).cut (grid0.coords t0_9) ((dats m 0 c).after 7 t0_9) = _
  rw [after0_7, after_last]
  have hz' : (fun a => win0_7.index t0_9 a * main_v0.ty.shape.size a) = fun _ => 0 :=
    funext fun a => by fin_cases a <;> decide
  exact (Memref.read_access_unit_zero (Elt Ideal) main_v0 hz' (fun a => by rw [congrFun hz' a]; simp) (result m c)).symm

/-- So the result array ends holding the encoder: the last point's block covers it. -/
theorem final (c : Dev nD) : (dats m 0 c).arrAt 7 cfg0.N = result m c :=
  (dats m 0 c).arrAt_eq_of_cover 7 (result m c) (flushed_eq m c) fun i =>
    ⟨t0_9, (flush0_7 t0_9).mpr rfl, by
      show i ∈ ((View.whole main_v0).slice (win0_7.rect t0_9)).set
      rw [View.set_slice_whole, Rect.mem_set_unit]
      intro a
      have h0 : (i 0 : Nat) < 8 := (i 0).isLt
      have h1 : (i 1 : Nat) < 128 := (i 1).isLt
      match a with
      | ⟨0, _⟩ =>
        show win0_7.index t0_9 0 * win0_7.size 0 ≤ (i 0 : Nat)
          ∧ (i 0 : Nat) < win0_7.index t0_9 0 * win0_7.size 0 + win0_7.xsize (grid0.coords t0_9) 0
        rw [show win0_7.index t0_9 0 * win0_7.size 0 = 0 from by decide +kernel,
          show win0_7.xsize (grid0.coords t0_9) 0 = 8 from by decide +kernel]
        omega
      | ⟨1, _⟩ =>
        show win0_7.index t0_9 1 * win0_7.size 1 ≤ (i 1 : Nat)
          ∧ (i 1 : Nat) < win0_7.index t0_9 1 * win0_7.size 1 + win0_7.xsize (grid0.coords t0_9) 1
        rw [show win0_7.index t0_9 1 * win0_7.size 1 = 0 from by decide +kernel,
          show win0_7.xsize (grid0.coords t0_9) 1 = 128 from by decide +kernel]
        omega⟩

/-- The kernel's run: every weakly fair execution ends with the result array at the encoder of the arguments and
    the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Encoder.Kernel

end
-- ==== Proof.lean ====
/-
  The proof of `Cert.Claim`: the fused encoder kernel against its reference.

  Both programs compute, on the extended reals, the encoder of Proof/Spec.lean: two dense layers with a cut-off
  at zero on every node's feature row, the mean over the 10000 nodes of each batch entry, and a last dense layer
  on the pooled rows. The reference does it on whole arrays (Proof/RefEncoder.lean). The kernel walks the node
  axis in ten blocks of 1000 nodes, keeps a running total of the second layer's outputs that starts at zero, and
  after the last block scales the total by 1/10000 and applies the last layer (Proof/KernelEncoder.lean). The two
  agree because a sum over the nodes may be taken block by block, addition on the extended reals being
  commutative and associative, and because dividing by the real number 10000 is multiplying by 1/10000, the
  value the kernel's constant is named as. Neither fact needs the inputs to be finite.

  The three frames are the generated ones (the reference's is its generated run with the result dropped), and
  the one rewrite of the idealization — the constant named 1/10000 — is the named-constant rule's statement.
-/
import proofs.«142899_g28527172780593_cont_9to1_767_9_alg».proof.Defs
import proofs.«142899_g28527172780593_cont_9to1_767_9_alg».proof.Proof.Gen.Kernel
import proofs.«142899_g28527172780593_cont_9to1_767_9_alg».proof.Proof.Gen.Kernel.Frame
import proofs.«142899_g28527172780593_cont_9to1_767_9_alg».proof.Proof.Gen.KernelIdeal
import proofs.«142899_g28527172780593_cont_9to1_767_9_alg».proof.Proof.Gen.KernelIdeal.Frame
import proofs.«142899_g28527172780593_cont_9to1_767_9_alg».proof.Proof.Gen.KernelIdeal.Value
import proofs.«142899_g28527172780593_cont_9to1_767_9_alg».proof.Proof.Gen.ReferenceIdeal
import proofs.«142899_g28527172780593_cont_9to1_767_9_alg».proof.Proof.Gen.ReferenceIdeal.Run
import proofs.«142899_g28527172780593_cont_9to1_767_9_alg».proof.Proof.Gen.ReferenceIdeal.Read
import proofs.«142899_g28527172780593_cont_9to1_767_9_alg».proof.Proof.Gen.Pre_finite_inputs
import proofs.«142899_g28527172780593_cont_9to1_767_9_alg».proof.Proof.RefEncoder
import proofs.«142899_g28527172780593_cont_9to1_767_9_alg».proof.Proof.KernelEncoder

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the table gives the name the value 1/10000, which the printed constant then
    is on the extended reals. -/
theorem preserves : Cert.preserves_Kernel_KernelIdeal :=
  IdealRules.named_const.statement Cert.KernelIdeal.κ "inv_10000" .f32 0x38D1B717#32 ((1 / 10000 : ℝ) : EReal) rfl

/-- From memories that agree on the arguments the kernel's result array ends at the encoder of its arguments and
    the reference's at the encoder of its own: the same array. -/
theorem algebraic : Cert.algebraic_KernelIdeal_ReferenceIdeal := by
  intro m ρ m' ρ' _ hagree
  refine ⟨fun c => Cert.Encoder.Kernel.result m c, Cert.Encoder.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Encoder.Ref.result_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
